-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 56
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result array named.

  The program is four segments: host operations, the first layer's pipelined matrix kernel, host operations, the second
  layer's.  The contents of every buffer at each boundary are a fold through the segments from the launch memory; the last
  of them is what the run ends in.  The frame claim reads only the argument arrays off that last boundary; here the result
  array is read off it as well, so that its value can be computed from the fold.
-/
import proofs.«146833_j6571299963286_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents of
    its buffer and the argument arrays end as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMatProd.lean ====
/-
  The product of two matrices on the extended reals as ONE whole-array function, and two ways a program spells it.

  For an [m, K] matrix l and a [K, n] matrix r the product is the [m, n] matrix whose entry (p, q) is
  Σ_k l(p, k) · r(k, q).  The host's `dot_general` of the plain form (axis 1 of the left against axis 0 of the right,
  no batch axis) IS that matrix, and so is a kernel's `tpu.matmul` of the same form accumulated into the zero splat:
  both are the textbook sum at every entry, and a matrix is its entries.  No finiteness is used: nothing is
  re-associated or distributed.
-/
import proofs.«146833_j6571299963286_1_alg».proof.Proof.LibPlainMatmul

noncomputable section

namespace Cert.MatProd

open Idealize.ShloMosaic Idealize.ShloMosaic.ValueIdx

/-- The matrix product, entry by entry. -/
def matProd {m K n : ℕ} (l : (⟨2, ![m, K]⟩ : Shape).Idx → EReal) (r : (⟨2, ![K, n]⟩ : Shape).Idx → EReal) :
    (⟨2, ![m, n]⟩ : Shape).Idx → EReal :=
  fun i => ∑ k : Fin K, l (ix2 (i 0) k) * r (ix2 k (i 1))

/-- The product read at (p, q). -/
theorem matProd_apply {m K n : ℕ} (l : (⟨2, ![m, K]⟩ : Shape).Idx → EReal) (r : (⟨2, ![K, n]⟩ : Shape).Idx → EReal)
    (p : Fin m) (q : Fin n) : matProd l r (ix2 p q) = ∑ k : Fin K, l (ix2 p k) * r (ix2 k q) := rfl

/-- The host's plain `dot_general` is the matrix product, as a whole array, under any schedule key. -/
theorem dotGeneral_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) :
    FloatOps.dotGeneral (PlainMatmul.plain wf) prec sched l r = matProd l r := by
  funext i
  obtain ⟨p, q, rfl⟩ : ∃ (p : Fin m) (q : Fin n), i = ix2 p q := ⟨i 0, i 1, eq_ix2 i⟩
  exact PlainMatmul.dotGeneral_apply wf prec sched l r p q

/-- A kernel's plain `tpu.matmul` into the zero splat is the matrix product, as a whole block. -/
theorem matmul_zero_eq {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) :
    FloatOps.matmul (PlainMatmul.plain wf) prec l r (constant (⟨2, ![m, n]⟩ : Shape) .f32 0x00000000#32) = matProd l r := by
  funext i
  obtain ⟨p, q, rfl⟩ : ∃ (p : Fin m) (q : Fin n), i = ix2 p q := ⟨i 0, i 1, eq_ix2 i⟩
  exact PlainMatmul.matmul_zero_apply wf prec l r p q

end Cert.MatProd

end
-- ==== Proof.SageSpec.lean ====
/-
  Two rounds of mean-aggregating graph convolution on the extended reals, as whole-array functions.

  A node table is a [50000, 128] matrix h.  One round takes, besides h, the table S h of summed messages (row r of S h is the
  sum of the rows of h at the sources of the edges that end in r: here an arbitrary operator on tables, never opened) and the
  in-degree vector deg, forms the mean of the in-neighbours  (S h)(r, ·) / max(deg r, 1),  and returns
  h · W_self + mean · W_neigh + b.  The first round is followed by max(·, 0).

  One law joins a program that multiplies by the reciprocal 1 / max(deg r, 1) to one that divides by max(deg r, 1):
  the divisor is at least one, so it is not zero, and off zero the quotient x / y is x · y⁻¹ at every extended real,
  the infinities included; no finiteness of the summed messages or of the degree is used.
-/
import proofs.«146833_j6571299963286_1_alg».proof.Proof.LibMatProd
import Idealize.ShloMosaic.Lib.IdealHost

noncomputable section

namespace Cert.Sage

open Idealize.ShloMosaic Idealize.ShloMosaic.ValueIdx Cert.MatProd

/-- A node table: one row of 128 features per node. -/
abbrev Feat : Shape := ⟨2, ![50000, 128]⟩
/-- A weight matrix. -/
abbrev Wt : Shape := ⟨2, ![128, 128]⟩
/-- A bias vector. -/
abbrev Bias : Shape := ⟨1, ![128]⟩
/-- One number per node. -/
abbrev Node : Shape := ⟨1, ![50000]⟩

/-- The f32 pattern of 1.0, kept as a pattern. -/
abbrev one : EReal := Ideal.ofBits .f32 0x3F800000#32
/-- The f32 pattern of 0.0, kept as a pattern. -/
abbrev zero : EReal := Ideal.ofBits .f32 0x00000000#32

/-- The divisor of a node's mean: its in-degree, or one for an isolated node. -/
def denom (deg : Node.Idx → EReal) (r : Fin 50000) : EReal := max (deg (ix1 r)) one

/-- The mean over in-neighbours as a quotient: summed messages over the divisor. -/
def meanDiv (s : Feat.Idx → EReal) (deg : Node.Idx → EReal) : Feat.Idx → EReal :=
  fun i => Ideal.div (s i) (denom deg (i 0))

/-- The same mean as a product with the divisor's reciprocal. -/
def meanMul (s : Feat.Idx → EReal) (deg : Node.Idx → EReal) : Feat.Idx → EReal :=
  fun i => s i * Ideal.div one (denom deg (i 0))

/-- The divisor is not zero: it is at least one. -/
theorem denom_ne_zero (deg : Node.Idx → EReal) (r : Fin 50000) : denom deg r ≠ 0 := by
  have h1 : (1 : EReal) ≤ denom deg r := by
    unfold denom one; rw [Ideal.ofBits_one_f32]; exact le_max_right _ _
  exact (lt_of_lt_of_le zero_lt_one h1).ne'

/-- Multiplying by the reciprocal of the divisor is dividing by it, at every extended real. -/
theorem meanMul_eq (s : Feat.Idx → EReal) (deg : Node.Idx → EReal) : meanMul s deg = meanDiv s deg := by
  funext i
  unfold meanMul meanDiv one
  rw [Ideal.ofBits_one_f32]
  exact Ideal.mul_one_div (denom_ne_zero deg (i 0))

/-- h · W_self + hn · W_neigh + b, the bias laid along every row. -/
def affine (h hn : Feat.Idx → EReal) (Ws Wn : Wt.Idx → EReal) (b : Bias.Idx → EReal) : Feat.Idx → EReal :=
  fun i => matProd h Ws i + matProd hn Wn i + b (ix1 (i 1))

/-- max(·, 0) at every entry. -/
def relu (a : Feat.Idx → EReal) : Feat.Idx → EReal := fun i => max (a i) zero

/-- One round: the table, the mean of its in-neighbours, the affine map. -/
def round (S : (Feat.Idx → EReal) → Feat.Idx → EReal) (deg : Node.Idx → EReal) (h : Feat.Idx → EReal)
    (Ws Wn : Wt.Idx → EReal) (b : Bias.Idx → EReal) : Feat.Idx → EReal :=
  affine h (meanDiv (S h) deg) Ws Wn b

/-- Two rounds with max(·, 0) between them. -/
def net (S : (Feat.Idx → EReal) → Feat.Idx → EReal) (deg : Node.Idx → EReal) (x : Feat.Idx → EReal)
    (W1s W1n : Wt.Idx → EReal) (b1 : Bias.Idx → EReal) (W2s W2n : Wt.Idx → EReal) (b2 : Bias.Idx → EReal) :
    Feat.Idx → EReal :=
  round S deg (relu (round S deg x W1s W1n b1)) W2s W2n b2

end Cert.Sage

end
-- ==== Proof.Body.lean ====
/-
  What each kernel body computes from its loaded blocks, as a function on the block's entries, on the extended reals.

  A body loads a [5000, 128] block of the node table h, the matching block of the neighbour means hn, the two [128, 128]
  weight matrices and the bias as a [1, 128] row.  It narrows the four matrices to bf16 (the identity on the extended
  reals), multiplies h · W_self and hn · W_neigh, each into a zero accumulator, adds the two products, adds the bias row
  laid down the rows, and — in the first layer only — takes the maximum with zero.  So entry (p, q) of what it stores is
  Σ_k h(p, k) · W_self(k, q) + Σ_k hn(p, k) · W_neigh(k, q) + b(0, q),  the first layer's under max(·, 0).
-/
import proofs.«146833_j6571299963286_1_alg».proof.Proof.Gen.KernelIdeal.Skeleton
import proofs.«146833_j6571299963286_1_alg».proof.Proof.SageSpec
import Idealize.ShloMosaic.Lib.Pipeline.Value

noncomputable section

namespace Cert.KernelIdeal.Body

open Idealize.ShloMosaic Idealize.ShloMosaic.ValueIdx Cert.KernelIdeal Cert.KernelIdeal.Gen Cert.MatProd Cert.Sage

/-- The printed record of the blocks' product is the plain [5000, 128] × [128, 128] one. -/
theorem dot_plain : dot_S5000x128_S128x128_S5000x128_1_0_0_1_n_n
    = PlainMatmul.plain (m := 5000) (K := 128) (n := 128) Facts₀.dot_S5000x128_S128x128_S5000x128_1_0_0_1_n_n_wf := rfl

/-- The bias row laid down the 5000 rows of a block reads the row's entry of the same column. -/
theorem bias_row (x4 : Vec Ideal S1x128 .f32) (j : S5000x128.Idx) :
    broadcastTo S5000x128 x4 broadcasts_S1x128_S5000x128 j = x4 (ix2 0 (j 1)) :=
  broadcastTo_apply x4 broadcasts_S1x128_S5000x128 j (ix2 0 (j 1)) (fun a => match a with
    | ⟨0, _⟩ => by show (0 : Nat) = if (1 : Nat) = 1 then 0 else _; rw [if_pos rfl]
    | ⟨1, _⟩ => by show (j 1).val = if (128 : Nat) = 1 then 0 else (j 1).val; rw [if_neg (by decide)])

/-- The first layer's stored block: the two products, the bias row, the maximum with zero. -/
theorem pay0_eq (x0 x1 : Vec Ideal S5000x128 .f32) (x2 x3 : Vec Ideal S128x128 .f32) (x4 : Vec Ideal S1x128 .f32) :
    k0_pay1 x0 x1 x2 x3 x4 = fun j => max (matProd x0 x2 j + matProd x1 x3 j + x4 (ix2 0 (j 1))) zero := by
  unfold k0_pay1
  rw [shapeCast_self, shapeCast_self]
  dsimp only [matmul]
  rw [dot_plain, matmul_zero_eq, matmul_zero_eq]
  funext j
  show max (matProd x0 x2 j + matProd x1 x3 j + broadcastTo S5000x128 x4 broadcasts_S1x128_S5000x128 j)
      (Ideal.ofBits .f32 0x00000000#32) = _
  rw [bias_row]

/-- The second layer's stored block: the two products and the bias row. -/
theorem pay1_eq (x0 x1 : Vec Ideal S5000x128 .f32) (x2 x3 : Vec Ideal S128x128 .f32) (x4 : Vec Ideal S1x128 .f32) :
    k1_pay1 x0 x1 x2 x3 x4 = fun j => matProd x0 x2 j + matProd x1 x3 j + x4 (ix2 0 (j 1)) := by
  unfold k1_pay1
  rw [shapeCast_self, shapeCast_self, shapeCast_self]
  dsimp only [matmul]
  rw [dot_plain, matmul_zero_eq, matmul_zero_eq]
  funext j
  show matProd x0 x2 j + matProd x1 x3 j + broadcastTo S5000x128 x4 broadcasts_S1x128_S5000x128 j = _
  rw [bias_row]

end Cert.KernelIdeal.Body

end
-- ==== Proof.Layer0.lean ====
/-
  The first layer's pipelined kernel, from blocks to the whole array.

  The pipeline walks ten grid points; point t stages rows 5000·t … 5000·t + 4999 of the node table and of the neighbour
  means, the two whole weight matrices and the whole bias row, runs the body, and writes the body's block back to the same
  rows of the output.  Row r of a product h · W depends only on row r of h, so the body's block at point t is rows
  5000·t … of ONE whole-array function of the arrays the pipeline finds: max(h · W_self + hn · W_neigh + b, 0).  The ten
  blocks tile the 50000 rows, so the output array ends holding that function.  Everything is stated at arbitrary contents
  of the buffers at the pipeline's entry.
-/
import proofs.«146833_j6571299963286_1_alg».proof.Proof.Gen.KernelIdeal.Frame
import proofs.«146833_j6571299963286_1_alg».proof.Proof.Body

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MatProd Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The bias as the pipeline holds it, a [1, 128] row, read as a vector. -/
def rowVec (r : S1x128.Idx → EReal) : Bias.Idx → EReal := fun j => r (ix2 0 (j 0))

/-- What the layer's output array ends holding, from the arrays the pipeline finds at its entry. -/
def result (c : Dev nD) : Feat.Idx → EReal :=
  relu (affine (V c main_arg0) (V c main_v20) (V c main_arg1) (V c main_arg2) (rowVec (V c main_v21)))

/-- The printed index maps over the grid: the two row-blocked inputs move with the output's row block, the weights and
    the bias stay at block zero, and the output has ten row blocks and one column block. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every row block of the output is some point's. -/
theorem index_onto : ∀ q : Fin 10, ∃ t : Fin cfg0.N, win0_5.index t = ![q.val, 0] :=
  (by decide +kernel : ∀ q : Fin 10, ∃ t : Fin grid0.N, win0_5.index t = ![q.val, 0])

/-- Entry j of the body's block at point t is the whole-array function at j's place in the output array. -/
theorem block_entry (c : Dev nD) (t : Fin cfg0.N) (j : S5000x128.Idx) :
    max (matProd (iblk0 V c 0 t) (iblk0 V c 2 t) j + matProd (iblk0 V c 1 t) (iblk0 V c 3 t) j
        + iblk0 V c 4 t (ix2 0 (j 1))) zero
      = result V c (((cfg0.win 5).blk t).view.emb j) := by
  obtain ⟨e00, e01, e10, e11, e20, e21, e30, e31, e40, e41, e51, -⟩ := index_facts t
  have hj0 : (j 0).val < 5000 := (j 0).isLt
  have hj1 : (j 1).val < 128 := (j 1).isLt
  -- a row of the node-table block is the same row of the table, offset by the row block
  have hh : ∀ k : Fin 128, iblk0 V c 0 t (ix2 (j 0) k) = V c main_arg0 (ix2 ((((cfg0.win 5).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  have hn : ∀ k : Fin 128, iblk0 V c 1 t (ix2 (j 0) k) = V c main_v20 (ix2 ((((cfg0.win 5).blk t).view.emb j) 0) k) := fun k => by
    show V c main_v20 (((cfg0.win 1).blk t).view.emb (ix2 (j 0) k)) = _
    refine congrArg (V c main_v20) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  -- the weight blocks are the whole matrices; the block's column is the array's column
  have hws : ∀ k : Fin 128, iblk0 V c 2 t (ix2 k (j 1)) = V c main_arg1 (ix2 k ((((cfg0.win 5).blk t).view.emb j) 1)) := fun k => by
    show V c main_arg1 (((cfg0.win 2).blk t).view.emb (ix2 k (j 1))) = _
    refine congrArg (V c main_arg1) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_5.index t (1 : Fin 2) * 128 + 1 * (j 1).val; omega
  have hwn : ∀ k : Fin 128, iblk0 V c 3 t (ix2 k (j 1)) = V c main_arg2 (ix2 k ((((cfg0.win 5).blk t).view.emb j) 1)) := fun k => by
    show V c main_arg2 (((cfg0.win 3).blk t).view.emb (ix2 k (j 1))) = _
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega
  -- the bias block is the whole row
  have hb : iblk0 V c 4 t (ix2 0 (j 1)) = V c main_v21 (ix2 0 ((((cfg0.win 5).blk t).view.emb j) 1)) := by
    show V c main_v21 (((cfg0.win 4).blk t).view.emb (ix2 0 (j 1))) = _
    refine congrArg (V c main_v21) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_5.index t (1 : Fin 2) * 128 + 1 * (j 1).val; omega
  show _ = max (matProd (V c main_arg0) (V c main_arg1) (((cfg0.win 5).blk t).view.emb j)
      + matProd (V c main_v20) (V c main_arg2) (((cfg0.win 5).blk t).view.emb j)
      + V c main_v21 (ix2 0 ((((cfg0.win 5).blk t).view.emb j) 1))) zero
  have p1 : matProd (iblk0 V c 0 t) (iblk0 V c 2 t) j
      = matProd (V c main_arg0) (V c main_arg1) (((cfg0.win 5).blk t).view.emb j) :=
    Finset.sum_congr rfl fun k _ => by rw [hh k, hws k]
  have p2 : matProd (iblk0 V c 1 t) (iblk0 V c 3 t) j
      = matProd (V c main_v20) (V c main_arg2) (((cfg0.win 5).blk t).view.emb j) :=
    Finset.sum_congr rfl fun k _ => by rw [hn k, hwn k]
  rw [p1, p2, hb]

/-- What point t writes back is its block of the whole-array function. -/
theorem flushed (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets,
    View.ld_unit_zero (S := S1x128) zero_offsets]
  rw [Body.pay0_eq]
  funext j
  exact block_entry V c t j

/-- An index of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v22).slice (win0_5.rect t)).set ↔ _
  rw [View.set_slice_whole, Rect.mem_set_unit]
  exact Iff.rfl

/-- The ten row blocks tile the array: row r is in the block of the point whose row block is r / 5000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the pipeline is the whole-array function of the arrays it found. -/
theorem final (c : Dev nD) : (dat0 V c).arrAt 5 cfg0.N = result V c :=
  (dat0 V c).arrAt_eq_of_cover 5 (result V c) (fun t _ => flushed V c t) cover

end Cert.KernelIdeal.Layer0

end
-- ==== Proof.Layer1.lean ====
/-
  The second layer's pipelined kernel, from blocks to the whole array.

  As in the first layer, ten grid points each stage 5000 rows of the node table and of the neighbour means beside the whole
  weight matrices and bias row, and write the body's block back to the same rows.  The body's block at point t is rows
  5000·t … of the whole-array function h · W_self + hn · W_neigh + b of the arrays the pipeline finds (no maximum in this
  layer), and the ten blocks tile the output, which therefore ends holding that function.  Everything is stated at
  arbitrary contents of the buffers at the pipeline's entry.
-/
import proofs.«146833_j6571299963286_1_alg».proof.Proof.Gen.KernelIdeal.Frame
import proofs.«146833_j6571299963286_1_alg».proof.Proof.Body

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.MatProd Cert.Sage

variable (V : (c : Dev nD) → (b : Ref sig .tc) → Buf (Elt Ideal) ((c : Thread nD τ).loc b))

theorem zero_offsets : (![0, 0] : Fin 2 → Nat) = fun _ => 0 := funext fun a => by fin_cases a <;> rfl

/-- The bias as the pipeline holds it, a [1, 128] row, read as a vector. -/
def rowVec (r : S1x128.Idx → EReal) : Bias.Idx → EReal := fun j => r (ix2 0 (j 0))

/-- What the layer's output array ends holding, from the arrays the pipeline finds at its entry. -/
def result (c : Dev nD) : Feat.Idx → EReal :=
  affine (V c main_v22) (V c main_v34) (V c main_arg4) (V c main_arg5) (rowVec (V c main_v35))

/-- The printed index maps over the grid: the two row-blocked inputs move with the output's row block, the weights and
    the bias stay at block zero, and the output has ten row blocks and one column block. -/
theorem index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the output is some point's. -/
theorem index_onto : ∀ q : Fin 10, ∃ t : Fin cfg1.N, win1_5.index t = ![q.val, 0] :=
  (by decide +kernel : ∀ q : Fin 10, ∃ t : Fin grid1.N, win1_5.index t = ![q.val, 0])

/-- Entry j of the body's block at point t is the whole-array function at j's place in the output array. -/
theorem block_entry (c : Dev nD) (t : Fin cfg1.N) (j : S5000x128.Idx) :
    matProd (iblk1 V c 0 t) (iblk1 V c 2 t) j + matProd (iblk1 V c 1 t) (iblk1 V c 3 t) j
        + iblk1 V c 4 t (ix2 0 (j 1))
      = result V c (((cfg1.win 5).blk t).view.emb j) := by
  obtain ⟨e00, e01, e10, e11, e20, e21, e30, e31, e40, e41, e51, -⟩ := index_facts t
  have hj0 : (j 0).val < 5000 := (j 0).isLt
  have hj1 : (j 1).val < 128 := (j 1).isLt
  -- a row of the node-table block is the same row of the table, offset by the row block
  have hh : ∀ k : Fin 128, iblk1 V c 0 t (ix2 (j 0) k) = V c main_v22 (ix2 ((((cfg1.win 5).blk t).view.emb j) 0) k) := fun k => by
    show V c main_v22 (((cfg1.win 0).blk t).view.emb (ix2 (j 0) k)) = _
    refine congrArg (V c main_v22) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  have hn : ∀ k : Fin 128, iblk1 V c 1 t (ix2 (j 0) k) = V c main_v34 (ix2 ((((cfg1.win 5).blk t).view.emb j) 0) k) := fun k => by
    show V c main_v34 (((cfg1.win 1).blk t).view.emb (ix2 (j 0) k)) = _
    refine congrArg (V c main_v34) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  -- the weight blocks are the whole matrices; the block's column is the array's column
  have hws : ∀ k : Fin 128, iblk1 V c 2 t (ix2 k (j 1)) = V c main_arg4 (ix2 k ((((cfg1.win 5).blk t).view.emb j) 1)) := fun k => by
    show V c main_arg4 (((cfg1.win 2).blk t).view.emb (ix2 k (j 1))) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_5.index t (1 : Fin 2) * 128 + 1 * (j 1).val; omega
  have hwn : ∀ k : Fin 128, iblk1 V c 3 t (ix2 k (j 1)) = V c main_arg5 (ix2 k ((((cfg1.win 5).blk t).view.emb j) 1)) := fun k => by
    show V c main_arg5 (((cfg1.win 3).blk t).view.emb (ix2 k (j 1))) = _
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 128 + 1 * (j 1).val = win1_5.index t (1 : Fin 2) * 128 + 1 * (j 1).val; omega
  -- the bias block is the whole row
  have hb : iblk1 V c 4 t (ix2 0 (j 1)) = V c main_v35 (ix2 0 ((((cfg1.win 5).blk t).view.emb j) 1)) := by
    show V c main_v35 (((cfg1.win 4).blk t).view.emb (ix2 0 (j 1))) = _
    refine congrArg (V c main_v35) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  show _ = matProd (V c main_v22) (V c main_arg4) (((cfg1.win 5).blk t).view.emb j)
      + matProd (V c main_v34) (V c main_arg5) (((cfg1.win 5).blk t).view.emb j)
      + V c main_v35 (ix2 0 ((((cfg1.win 5).blk t).view.emb j) 1))
  have p1 : matProd (iblk1 V c 0 t) (iblk1 V c 2 t) j
      = matProd (V c main_v22) (V c main_arg4) (((cfg1.win 5).blk t).view.emb j) :=
    Finset.sum_congr rfl fun k _ => by rw [hh k, hws k]
  have p2 : matProd (iblk1 V c 1 t) (iblk1 V c 3 t) j
      = matProd (V c main_v34) (V c main_arg5) (((cfg1.win 5).blk t).view.emb j) :=
    Finset.sum_congr rfl fun k _ => by rw [hn k, hwn k]
  rw [p1, p2, hb]

/-- What point t writes back is its block of the whole-array function. -/
theorem flushed (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x128) zero_offsets,
    View.ld_unit_zero (S := S1x128) zero_offsets]
  rw [Body.pay1_eq]
  funext j
  exact block_entry V c t j

/-- An index of the output array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v36).slice (win1_5.rect t)).set ↔ _
  rw [View.set_slice_whole, Rect.mem_set_unit]
  exact Iff.rfl

/-- The ten row blocks tile the array: row r is in the block of the point whose row block is r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := index_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the pipeline is the whole-array function of the arrays it found. -/
theorem final (c : Dev nD) : (dat1 V c).arrAt 5 cfg1.N = result V c :=
  (dat1 V c).arrAt_eq_of_cover 5 (result V c) (fun t _ => flushed V c t) cover

end Cert.KernelIdeal.Layer1

end
-- ==== Proof.HostOps.lean ====
/-
  The graph side of a round, as whole-array operators on the extended reals.

  From the edge list (src, dst) the host computes, for a node table h: the table of summed messages — the rows of h at
  the edges' sources (a source index below zero counted from the end) scatter-added into a zero table at the edges'
  destinations —, and the in-degree vector — ones scatter-added into a zero vector at the destinations.  Neither is read
  at an index here: both programs apply the same gather and scatter-add to the same operands, so each is carried as one
  function.  What IS read at an index is the scale one program multiplies the summed messages by: the quotient
  1 / max(deg, 1) laid out as a column and broadcast along the rows, so that entry (r, q) of the scaled table is the
  summed message times 1 / max(deg r, 1).
-/
import proofs.«146833_j6571299963286_1_alg».proof.Proof.Gen.KernelIdeal
import proofs.«146833_j6571299963286_1_alg».proof.Proof.SageSpec
import Idealize.ShloMosaic.Lib.Pipeline.Value
import Idealize.ShloMosaic.Lib.IdealHost

noncomputable section

namespace Cert.KernelIdeal.HostOps

open Idealize.ShloMosaic Idealize.ShloMosaic.ValueIdx Cert.KernelIdeal Cert.KernelIdeal.Gen Cert.Sage

/-- An edge-index array. -/
abbrev EdgeIdx : Type := IVec S800000 32
/-- A node table. -/
abbrev Table : Type := FVec Ideal S50000x128 .f32

/-- The gather's start indices: the source of each edge, a negative index counted from the end of the table. -/
def srcStarts (src : EdgeIdx) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The scatter's indices: the destination of each edge. -/
def dstStarts (dst : EdgeIdx) : IVec S800000x1 32 :=
  broadcastInDim S800000x1 ![0] bcast_S800000_S800000x1_0 dst

/-- The summed messages: rows of `h` at the sources, added into a zero table at the destinations. -/
def msgSum (src dst : EdgeIdx) (h : Table) : Table :=
  Host.scatterAdd scatter_S50000x128_S800000x1_S800000x128_1_0_0_1
    (broadcastInDim S50000x128 ![] bcast_S_S50000x128 (constant (F := Ideal) S_ .f32 0x00000000#32))
    (dstStarts dst)
    (Host.gather gather_S50000x128_S800000x1_S800000x128_1_0_n_n_0_1_1128 h (srcStarts src))

/-- The in-degrees: ones added into a zero vector at the destinations. -/
def degree (dst : EdgeIdx) : FVec Ideal S50000 .f32 :=
  Host.scatterAdd scatter_S50000_S800000x1_S800000_n_0_0_1
    (broadcastInDim S50000 ![] bcast_S_S50000 (constant (F := Ideal) S_ .f32 0x00000000#32))
    (dstStarts dst)
    (broadcastInDim S800000 ![] bcast_S_S800000 (constant (F := Ideal) S_ .f32 0x3F800000#32))

/-- 1 / max(D, 1) of a vector D of node numbers, as a [50000, 1] column. -/
def recipOf (D : FVec Ideal S50000 .f32) : FVec Ideal S50000x1 .f32 :=
  broadcastInDim S50000x1 ![0] bcast_S50000_S50000x1_0
    (Host.divf (broadcastInDim S50000 ![] bcast_S_S50000 (constant (F := Ideal) S_ .f32 0x3F800000#32))
      (maximumf D (broadcastInDim S50000 ![] bcast_S_S50000 (constant (F := Ideal) S_ .f32 0x3F800000#32))))

/-- A table times a column broadcast along the rows. -/
def scaleBy (S : Table) (R : FVec Ideal S50000x1 .f32) : Table :=
  mulf S (broadcastInDim S50000x128 ![0, 1] bcast_S50000x1_S50000x128_0_1 R)

/-- The reciprocal column of the in-degrees. -/
def recipCol (dst : EdgeIdx) : FVec Ideal S50000x1 .f32 := recipOf (degree dst)

/-- The summed messages times the reciprocal column broadcast along the rows. -/
def scaled (src dst : EdgeIdx) (h : Table) : Table := scaleBy (msgSum src dst h) (recipCol dst)

/-- Entry (r, q) of a table S scaled by the reciprocal column of D is S(r, q) · 1 / max(D r, 1): for ANY table and vector. -/
theorem scaleBy_recipOf (S : Table) (D : FVec Ideal S50000 .f32) : scaleBy S (recipOf D) = meanMul S D := by
  funext i
  have h1 : broadcastInDim S50000x128 ![0, 1] bcast_S50000x1_S50000x128_0_1 (recipOf D) i = recipOf D (ix2 (i 0) 0) :=
    broadcastInDim_apply _ bcast_S50000x1_S50000x128_0_1 (recipOf D) i (ix2 (i 0) 0) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have h2 : recipOf D (ix2 (i 0) 0)
      = Host.divf (broadcastInDim S50000 ![] bcast_S_S50000 (constant (F := Ideal) S_ .f32 0x3F800000#32))
          (maximumf D (broadcastInDim S50000 ![] bcast_S_S50000 (constant (F := Ideal) S_ .f32 0x3F800000#32)))
          (ix1 (i 0)) :=
    broadcastInDim_apply _ bcast_S50000_S50000x1_0 _ (ix2 (i 0) 0) (ix1 (i 0)) (fun a => match a with
      | ⟨0, _⟩ => by show (i 0).val = if (50000 : Nat) = 1 then 0 else (i 0).val; rw [if_neg (by decide)])
  have h3 : broadcastInDim S50000 ![] bcast_S_S50000 (constant (F := Ideal) S_ .f32 0x3F800000#32) (ix1 (i 0)) = one :=
    broadcastInDim_scalar_apply bcast_S_S50000 _ _
  unfold scaleBy
  rw [mulf_apply, h1, h2, hostDivf_apply, maximumf_apply, h3]
  rfl

/-- Entry (r, q) of the scaled table is the summed message times 1 / max(deg r, 1). -/
theorem scaled_eq (src dst : EdgeIdx) (h : Table) : scaled src dst h = meanMul (msgSum src dst h) (degree dst) :=
  scaleBy_recipOf (msgSum src dst h) (degree dst)

end Cert.KernelIdeal.HostOps

end
-- ==== Proof.KernelValue.lean ====
/-
  The idealized kernel computes the two rounds.

  The run ends with the result array at the last boundary's contents.  Read backwards: the second pipeline leaves there the
  affine map of the arrays it finds at its entry; those are the first pipeline's output (untouched by the host operations
  between the two), the second layer's weights and bias as launched, and the table the host operations between the
  pipelines compute from the first pipeline's output: its summed messages times the reciprocal column, which the host
  operations before the first pipeline computed once from the edge list.  The first pipeline leaves max(affine map, 0) of
  the node table as launched, its summed messages times the same reciprocal column, and the first layer's weights and bias.
  Multiplying by the reciprocal of max(deg, 1) is dividing by it, and a bias reshaped to a [1, 128] row is the bias; so the
  result is the two rounds of the specification, over the summed-message operator and the in-degree of the edge list.
-/
import proofs.«146833_j6571299963286_1_alg».proof.Proof.KernelRun
import proofs.«146833_j6571299963286_1_alg».proof.Proof.Layer0
import proofs.«146833_j6571299963286_1_alg».proof.Proof.Layer1
import proofs.«146833_j6571299963286_1_alg».proof.Proof.HostOps
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.KernelIdeal.HostOps Cert.Sage Cert.MatProd

variable (m : (ℓ : Loc nD τ sig) → Buf (Elt Ideal) ℓ) (ρ : Dev nD → PrngReg)

/-! ## A bias reshaped to a row is the bias -/

theorem row_of_reshape (b : S128.Idx → EReal) (j : Bias.Idx) :
    shapeCast S1x128 b shapeCasts_S128_S1x128 (ix2 0 (j 0)) = b j :=
  (shapeCast_addUnit_apply ![128] b shapeCasts_S128_S1x128 (ix2 0 (j 0))).trans
    (congrArg b (funext fun a => match a with | ⟨0, _⟩ => rfl))

theorem rowVec0_reshape (b : S128.Idx → EReal) : Layer0.rowVec (shapeCast S1x128 b shapeCasts_S128_S1x128) = b :=
  funext fun j => row_of_reshape b j

theorem rowVec1_reshape (b : S128.Idx → EReal) : Layer1.rowVec (shapeCast S1x128 b shapeCasts_S128_S1x128) = b :=
  funext fun j => row_of_reshape b j

/-! ## The buffers at the first pipeline's entry: the host operations before it, from the launch memory -/

/-- The node table, as launched. -/
theorem entry0_h (c : Dev nD) : V1 m ρ c main_arg0 = (m ((c.tc : Thread nD τ).loc main_arg0)) := by
  show StableHlo.after hostOps0 (W0 m ρ c) (Proc.devRef .tc main_arg0) = _
  dsimp only [hostOps0]
  after_results_simp
  try rfl

theorem entry0_ws (c : Dev nD) : V1 m ρ c main_arg1 = (m ((c.tc : Thread nD τ).loc main_arg1)) := by
  show StableHlo.after hostOps0 (W0 m ρ c) (Proc.devRef .tc main_arg1) = _
  dsimp only [hostOps0]
  after_results_simp
  try rfl

theorem entry0_wn (c : Dev nD) : V1 m ρ c main_arg2 = (m ((c.tc : Thread nD τ).loc main_arg2)) := by
  show StableHlo.after hostOps0 (W0 m ρ c) (Proc.devRef .tc main_arg2) = _
  dsimp only [hostOps0]
  after_results_simp
  try rfl

theorem before_src (c : Dev nD) : W1 m ρ c (Proc.devRef .tc main_arg7) = (m ((c.tc : Thread nD τ).loc main_arg7)) := by
  show StableHlo.after hostOps0 (W0 m ρ c) (Proc.devRef .tc main_arg7) = _
  dsimp only [hostOps0]
  after_results_simp
  try rfl

theorem before_dst (c : Dev nD) : W1 m ρ c (Proc.devRef .tc main_arg8) = (m ((c.tc : Thread nD τ).loc main_arg8)) := by
  show StableHlo.after hostOps0 (W0 m ρ c) (Proc.devRef .tc main_arg8) = _
  dsimp only [hostOps0]
  after_results_simp
  try rfl

theorem before_w2s (c : Dev nD) : W1 m ρ c (Proc.devRef .tc main_arg4) = (m ((c.tc : Thread nD τ).loc main_arg4)) := by
  show StableHlo.after hostOps0 (W0 m ρ c) (Proc.devRef .tc main_arg4) = _
  dsimp only [hostOps0]
  after_results_simp
  try rfl

theorem before_w2n (c : Dev nD) : W1 m ρ c (Proc.devRef .tc main_arg5) = (m ((c.tc : Thread nD τ).loc main_arg5)) := by
  show StableHlo.after hostOps0 (W0 m ρ c) (Proc.devRef .tc main_arg5) = _
  dsimp only [hostOps0]
  after_results_simp
  try rfl

theorem before_b2 (c : Dev nD) : W1 m ρ c (Proc.devRef .tc main_arg6) = (m ((c.tc : Thread nD τ).loc main_arg6)) := by
  show StableHlo.after hostOps0 (W0 m ρ c) (Proc.devRef .tc main_arg6) = _
  dsimp only [hostOps0]
  after_results_simp
  try rfl

/-- The neighbour table the first pipeline finds: the summed messages of the launched node table, scaled. -/
theorem entry0_hn (c : Dev nD) : V1 m ρ c main_v20 = scaled (m ((c.tc : Thread nD τ).loc main_arg7)) (m ((c.tc : Thread nD τ).loc main_arg8)) (m ((c.tc : Thread nD τ).loc main_arg0)) := by
  show StableHlo.after hostOps0 (W0 m ρ c) (Proc.devRef .tc main_v20) = _
  dsimp only [hostOps0]
  after_results_simp
  try rfl

/-- The reciprocal column, computed once before the first pipeline. -/
theorem before_recip (c : Dev nD) : W1 m ρ c (Proc.devRef .tc main_v8) = recipCol (m ((c.tc : Thread nD τ).loc main_arg8)) := by
  show StableHlo.after hostOps0 (W0 m ρ c) (Proc.devRef .tc main_v8) = _
  dsimp only [hostOps0]
  after_results_simp
  try rfl

/-- The first layer's bias as the row the pipeline finds. -/
theorem entry0_b (c : Dev nD) : V1 m ρ c main_v21 = shapeCast S1x128 (m ((c.tc : Thread nD τ).loc main_arg3)) shapeCasts_S128_S1x128 := by
  show StableHlo.after hostOps0 (W0 m ρ c) (Proc.devRef .tc main_v21) = _
  dsimp only [hostOps0]
  after_results_simp
  try rfl

/-! ## Across the first pipeline: a buffer that is none of its arrays keeps its contents; its output holds the layer -/

theorem across_src (c : Dev nD) : W2 m ρ c (Proc.devRef .tc main_arg7) = (m ((c.tc : Thread nD τ).loc main_arg7)) :=
  (W2_of_ne m ρ c main_arg7 (by decide)).trans (before_src m ρ c)

theorem across_dst (c : Dev nD) : W2 m ρ c (Proc.devRef .tc main_arg8) = (m ((c.tc : Thread nD τ).loc main_arg8)) :=
  (W2_of_ne m ρ c main_arg8 (by decide)).trans (before_dst m ρ c)

theorem across_w2s (c : Dev nD) : W2 m ρ c (Proc.devRef .tc main_arg4) = (m ((c.tc : Thread nD τ).loc main_arg4)) :=
  (W2_of_ne m ρ c main_arg4 (by decide)).trans (before_w2s m ρ c)

theorem across_w2n (c : Dev nD) : W2 m ρ c (Proc.devRef .tc main_arg5) = (m ((c.tc : Thread nD τ).loc main_arg5)) :=
  (W2_of_ne m ρ c main_arg5 (by decide)).trans (before_w2n m ρ c)

theorem across_b2 (c : Dev nD) : W2 m ρ c (Proc.devRef .tc main_arg6) = (m ((c.tc : Thread nD τ).loc main_arg6)) :=
  (W2_of_ne m ρ c main_arg6 (by decide)).trans (before_b2 m ρ c)

theorem across_recip (c : Dev nD) : W2 m ρ c (Proc.devRef .tc main_v8) = recipCol (m ((c.tc : Thread nD τ).loc main_arg8)) :=
  (W2_of_ne m ρ c main_v8 (by decide)).trans (before_recip m ρ c)

/-- The first pipeline's output array after it. -/
theorem layer0_out (c : Dev nD) : W2 m ρ c (Proc.devRef .tc main_v22) = Layer0.result (V1 m ρ) c :=
  (W2_arr m ρ c 5).trans (Layer0.final (V1 m ρ) c)

/-- It is the first round of the specification under max(·, 0). -/
theorem layer0_value (c : Dev nD) : Layer0.result (V1 m ρ) c
    = relu (Sage.round (msgSum (m ((c.tc : Thread nD τ).loc main_arg7)) (m ((c.tc : Thread nD τ).loc main_arg8))) (degree (m ((c.tc : Thread nD τ).loc main_arg8)))
        (m ((c.tc : Thread nD τ).loc main_arg0)) (m ((c.tc : Thread nD τ).loc main_arg1)) (m ((c.tc : Thread nD τ).loc main_arg2)) (m ((c.tc : Thread nD τ).loc main_arg3))) := by
  unfold Layer0.result Sage.round
  rw [entry0_h, entry0_hn, entry0_ws, entry0_wn, entry0_b, rowVec0_reshape, scaled_eq, meanMul_eq]

/-! ## The buffers at the second pipeline's entry: the host operations between the pipelines -/

theorem entry1_h (c : Dev nD) : V3 m ρ c main_v22 = Layer0.result (V1 m ρ) c := by
  have e : V3 m ρ c main_v22 = W2 m ρ c (Proc.devRef .tc main_v22) := by
    show StableHlo.after hostOps1 (W2 m ρ c) (Proc.devRef .tc main_v22) = _
    dsimp only [hostOps1]
    after_results_simp
    try rfl
  exact e.trans (layer0_out m ρ c)

theorem entry1_ws (c : Dev nD) : V3 m ρ c main_arg4 = (m ((c.tc : Thread nD τ).loc main_arg4)) := by
  have e : V3 m ρ c main_arg4 = W2 m ρ c (Proc.devRef .tc main_arg4) := by
    show StableHlo.after hostOps1 (W2 m ρ c) (Proc.devRef .tc main_arg4) = _
    dsimp only [hostOps1]
    after_results_simp
    try rfl
  exact e.trans (across_w2s m ρ c)

theorem entry1_wn (c : Dev nD) : V3 m ρ c main_arg5 = (m ((c.tc : Thread nD τ).loc main_arg5)) := by
  have e : V3 m ρ c main_arg5 = W2 m ρ c (Proc.devRef .tc main_arg5) := by
    show StableHlo.after hostOps1 (W2 m ρ c) (Proc.devRef .tc main_arg5) = _
    dsimp only [hostOps1]
    after_results_simp
    try rfl
  exact e.trans (across_w2n m ρ c)

/-- The neighbour table the second pipeline finds: the summed messages of the first layer's output, scaled by the same
    reciprocal column. -/
theorem entry1_hn (c : Dev nD) : V3 m ρ c main_v34
    = scaled (m ((c.tc : Thread nD τ).loc main_arg7)) (m ((c.tc : Thread nD τ).loc main_arg8)) (Layer0.result (V1 m ρ) c) := by
  have e : V3 m ρ c main_v34
      = scaleBy (msgSum (W2 m ρ c (Proc.devRef .tc main_arg7)) (W2 m ρ c (Proc.devRef .tc main_arg8)) (W2 m ρ c (Proc.devRef .tc main_v22)))
          (W2 m ρ c (Proc.devRef .tc main_v8)) := by
    show StableHlo.after hostOps1 (W2 m ρ c) (Proc.devRef .tc main_v34) = _
    dsimp only [hostOps1]
    after_results_simp
    try rfl
  rw [e, across_src, across_dst, layer0_out, across_recip]
  rfl

/-- The second layer's bias as the row the pipeline finds. -/
theorem entry1_b (c : Dev nD) : V3 m ρ c main_v35 = shapeCast S1x128 (m ((c.tc : Thread nD τ).loc main_arg6)) shapeCasts_S128_S1x128 := by
  have e : V3 m ρ c main_v35 = shapeCast S1x128 (W2 m ρ c (Proc.devRef .tc main_arg6)) shapeCasts_S128_S1x128 := by
    show StableHlo.after hostOps1 (W2 m ρ c) (Proc.devRef .tc main_v35) = _
    dsimp only [hostOps1]
    after_results_simp
    try rfl
  rw [e, across_b2]

/-! ## The result -/

/-- The last boundary's contents of the result buffer are the two rounds of the specification. -/
theorem result_value (c : Dev nD) : W4 m ρ c (Proc.devRef .tc main_v36)
    = net (msgSum (m ((c.tc : Thread nD τ).loc main_arg7)) (m ((c.tc : Thread nD τ).loc main_arg8))) (degree (m ((c.tc : Thread nD τ).loc main_arg8)))
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) := by
  rw [show W4 m ρ c (Proc.devRef .tc main_v36) = (dat1 (V3 m ρ) c).arrAt 5 cfg1.N from W4_arr m ρ c 5, Layer1.final]
  unfold Layer1.result net Sage.round
  rw [entry1_h, entry1_hn, entry1_ws, entry1_wn, entry1_b, rowVec1_reshape, scaled_eq, meanMul_eq, layer0_value]
  rfl

end Cert.KernelIdeal.KValue

end
-- ==== Proof.RefValue.lean ====
/-
  The reference computes the two rounds.

  The reference is a straight line of host operations; its result stage, unfolded, is two copies of one pattern: the
  summed messages divided by the divisor table (max(deg, 1) laid out as a column and broadcast along the rows), two
  `dot_general`s of the plain matrix form added together, and the bias broadcast along the rows added on; between the two
  copies a maximum with the zero table.  Each piece is read once, as a whole-array function: the divisor table at (r, q) is
  max(deg r, 1); a plain `dot_general` is the matrix product; the bias table at (r, q) is b q.  The gather and the
  scatter-adds are the same operators, on the same operands, as the other program's, and are never opened.
-/
import proofs.«146833_j6571299963286_1_alg».proof.Proof.Gen.ReferenceIdeal.Read
import proofs.«146833_j6571299963286_1_alg».proof.Proof.HostOps

noncomputable section

namespace Cert.ReferenceIdeal.RefValue

open Idealize.ShloMosaic Idealize.ShloMosaic.ValueIdx Cert.ReferenceIdeal Cert.ReferenceIdeal.Gen Cert.ReferenceIdeal.Read
open Cert.Sage Cert.MatProd

/-- An edge-index array. -/
abbrev EdgeIdx : Type := IVec S800000 32
/-- A node table. -/
abbrev Table : Type := FVec Ideal S50000x128 .f32
/-- A weight matrix. -/
abbrev Weights : Type := FVec Ideal S128x128 .f32
/-- A bias vector. -/
abbrev BiasVec : Type := FVec Ideal S128 .f32

/-- The summed messages (the operator shared with the other program). -/
abbrev msgSum (src dst : EdgeIdx) (h : Table) : Table := Cert.KernelIdeal.HostOps.msgSum src dst h
/-- The in-degrees (shared likewise). -/
abbrev degree (dst : EdgeIdx) : FVec Ideal S50000 .f32 := Cert.KernelIdeal.HostOps.degree dst

/-- max(D, 1) of a vector D of node numbers, as a column, broadcast along the rows. -/
def divisorOf (D : FVec Ideal S50000 .f32) : Table :=
  broadcastInDim S50000x128 ![0, 1] bcast_S50000x1_S50000x128_0_1
    (broadcastInDim S50000x1 ![0] bcast_S50000_S50000x1_0
      (maximumf D (broadcastInDim S50000 ![] bcast_S_S50000 (constant (F := Ideal) S_ .f32 0x3F800000#32))))

/-- The divisor table at (r, q) is max(D r, 1): for ANY vector. -/
theorem divisorOf_apply (D : FVec Ideal S50000 .f32) (i : S50000x128.Idx) : divisorOf D i = denom D (i 0) := by
  have h1 : divisorOf D i
      = broadcastInDim S50000x1 ![0] bcast_S50000_S50000x1_0
          (maximumf D (broadcastInDim S50000 ![] bcast_S_S50000 (constant (F := Ideal) S_ .f32 0x3F800000#32)))
          (ix2 (i 0) 0) :=
    broadcastInDim_apply _ bcast_S50000x1_S50000x128_0_1 _ i (ix2 (i 0) 0) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl])
  have h2 : broadcastInDim S50000x1 ![0] bcast_S50000_S50000x1_0
        (maximumf D (broadcastInDim S50000 ![] bcast_S_S50000 (constant (F := Ideal) S_ .f32 0x3F800000#32)))
        (ix2 (i 0) 0)
      = maximumf D (broadcastInDim S50000 ![] bcast_S_S50000 (constant (F := Ideal) S_ .f32 0x3F800000#32))
          (ix1 (i 0)) :=
    broadcastInDim_apply _ bcast_S50000_S50000x1_0 _ (ix2 (i 0) 0) (ix1 (i 0)) (fun a => match a with
      | ⟨0, _⟩ => by show (i 0).val = if (50000 : Nat) = 1 then 0 else (i 0).val; rw [if_neg (by decide)])
  have h3 : broadcastInDim S50000 ![] bcast_S_S50000 (constant (F := Ideal) S_ .f32 0x3F800000#32) (ix1 (i 0)) = one :=
    broadcastInDim_scalar_apply bcast_S_S50000 _ _
  rw [h1, h2, maximumf_apply, h3]
  rfl

/-- A table over the divisor table of D is the mean as a quotient: for ANY table and vector. -/
theorem mean_of (S : Table) (D : FVec Ideal S50000 .f32) : Host.divf S (divisorOf D) = meanDiv S D := by
  funext i
  rw [hostDivf_apply, divisorOf_apply]
  rfl

/-- The divisor table of the in-degrees. -/
def divisor (dst : EdgeIdx) : Table := divisorOf (degree dst)

/-- The summed messages over the divisor table is the mean as a quotient. -/
theorem mean_eq (src dst : EdgeIdx) (h : Table) :
    Host.divf (msgSum src dst h) (divisor dst) = meanDiv (msgSum src dst h) (degree dst) :=
  mean_of (msgSum src dst h) (degree dst)

/-- The bias as a [1, 128] row broadcast along the 50000 rows reads the bias at the column. -/
theorem bias_apply (b : BiasVec) (i : S50000x128.Idx) :
    broadcastInDim S50000x128 ![0, 1] bcast_S1x128_S50000x128_0_1 (broadcastInDim S1x128 ![1] bcast_S128_S1x128_1 b) i
      = b (ix1 (i 1)) := by
  have h1 : broadcastInDim S50000x128 ![0, 1] bcast_S1x128_S50000x128_0_1 (broadcastInDim S1x128 ![1] bcast_S128_S1x128_1 b) i
      = broadcastInDim S1x128 ![1] bcast_S128_S1x128_1 b (ix2 0 (i 1)) :=
    broadcastInDim_apply _ bcast_S1x128_S50000x128_0_1 _ i (ix2 0 (i 1)) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])
  have h2 : broadcastInDim S1x128 ![1] bcast_S128_S1x128_1 b (ix2 0 (i 1)) = b (ix1 (i 1)) :=
    broadcastInDim_apply _ bcast_S128_S1x128_1 b (ix2 0 (i 1)) (ix1 (i 1)) (fun a => match a with
      | ⟨0, _⟩ => by show (i 1).val = if (128 : Nat) = 1 then 0 else (i 1).val; rw [if_neg (by decide)])
  rw [h1, h2]

/-- The printed record of the reference's products is the plain [50000, 128] × [128, 128] one. -/
theorem dot_plain : dot_S50000x128_S128x128_S50000x128_1_0_0_1_n_n
    = PlainMatmul.plain (m := 50000) (K := 128) (n := 128) Facts₀.dot_S50000x128_S128x128_S50000x128_1_0_0_1_n_n_wf := rfl

/-- The reference's `dot_general` is the matrix product. -/
theorem dot_eq (l : Table) (r : Weights) :
    Host.dotGeneral dot_S50000x128_S128x128_S50000x128_1_0_0_1_n_n none l r = matProd l r := by
  simp only [Host.dotGeneral]
  rw [dot_plain]
  exact dotGeneral_eq _ _ _ _ _

/-- One round as the reference spells it. -/
def roundRef (src dst : EdgeIdx) (h : Table) (Ws Wn : Weights) (b : BiasVec) : Table :=
  addf (addf (Host.dotGeneral dot_S50000x128_S128x128_S50000x128_1_0_0_1_n_n none h Ws)
      (Host.dotGeneral dot_S50000x128_S128x128_S50000x128_1_0_0_1_n_n none (Host.divf (msgSum src dst h) (divisor dst)) Wn))
    (broadcastInDim S50000x128 ![0, 1] bcast_S1x128_S50000x128_0_1 (broadcastInDim S1x128 ![1] bcast_S128_S1x128_1 b))

/-- It is the round of the specification. -/
theorem roundRef_eq (src dst : EdgeIdx) (h : Table) (Ws Wn : Weights) (b : BiasVec) :
    roundRef src dst h Ws Wn b = round (msgSum src dst) (degree dst) h Ws Wn b := by
  unfold roundRef
  rw [dot_eq, dot_eq, mean_eq]
  funext i
  rw [addf_apply, addf_apply, bias_apply]
  rfl

/-- The maximum with the zero table, as the reference spells it. -/
def reluRef (a : Table) : Table :=
  maximumf a (broadcastInDim S50000x128 ![] bcast_S_S50000x128 (constant (F := Ideal) S_ .f32 0x00000000#32))

theorem reluRef_eq (a : Table) : reluRef a = relu a := by
  funext i
  unfold reluRef
  rw [maximumf_apply, broadcastInDim_scalar_apply]
  rfl

/-- The reference's result stage is the two rounds of the specification over the shared graph operators. -/
theorem result_eq (x0 : Table) (x1 x2 : Weights) (x3 : BiasVec) (x4 x5 : Weights) (x6 : BiasVec) (x7 x8 : EdgeIdx) :
    val_main_v50 (F := Ideal) x0 x1 x2 x3 x4 x5 x6 x7 x8 = net (msgSum x7 x8) (degree x8) x0 x1 x2 x3 x4 x5 x6 := by
  have e : val_main_v50 (F := Ideal) x0 x1 x2 x3 x4 x5 x6 x7 x8
      = roundRef x7 x8 (reluRef (roundRef x7 x8 x0 x1 x2 x3)) x4 x5 x6 := rfl
  rw [e, roundRef_eq, reluRef_eq, roundRef_eq]
  rfl

end Cert.ReferenceIdeal.RefValue

end
-- ==== Proof.lean ====
/-
  Two rounds of mean-aggregating graph convolution (50000 nodes, 128 features, 800000 edges): a program whose dense part
  runs as two pipelined matrix kernels, against a plain array program.

  Both programs gather the rows of the node table at the edges' sources, scatter-add them at the edges' destinations, count
  the in-degrees by scatter-adding ones, and compute  h · W_self + mean · W_neigh + b  twice, with max(·, 0) between.  They
  differ in three ways, none of which changes a value on the extended reals.  The kernel program computes the reciprocal
  1 / max(deg, 1) once and multiplies the summed messages by it, where the array program divides by max(deg, 1): the divisor
  is at least one, hence not zero, and off zero x · (1 / y) = x / y at every extended real.  The kernel program computes
  the affine map block by block, 5000 rows at a time, with operands narrowed to bf16 and products accumulated into zero:
  narrowing is the identity, a product into zero is the product, row r of a matrix product depends only on row r of its
  left factor, and the blocks tile the rows.  And it passes the bias as a [1, 128] row.  So both results are one function
  of the arguments, index by index; no finiteness of the inputs is used, and the precondition is never opened.

  The frames of the two kernel programs are the generated ones; the array program's frame is its generated run with the
  result dropped; no rewrite was applied between the kernel program and its idealization.
-/
import proofs.«146833_j6571299963286_1_alg».proof.Defs
import proofs.«146833_j6571299963286_1_alg».proof.Proof.Gen.Kernel
import proofs.«146833_j6571299963286_1_alg».proof.Proof.Gen.Kernel.Frame
import proofs.«146833_j6571299963286_1_alg».proof.Proof.Gen.KernelIdeal
import proofs.«146833_j6571299963286_1_alg».proof.Proof.Gen.KernelIdeal.Frame
import proofs.«146833_j6571299963286_1_alg».proof.Proof.Gen.ReferenceIdeal
import proofs.«146833_j6571299963286_1_alg».proof.Proof.Gen.ReferenceIdeal.Run
import proofs.«146833_j6571299963286_1_alg».proof.Proof.Gen.ReferenceIdeal.Read
import proofs.«146833_j6571299963286_1_alg».proof.Proof.Gen.Pre_finite_inputs
import proofs.«146833_j6571299963286_1_alg».proof.Proof.KernelValue
import proofs.«146833_j6571299963286_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the two rounds of the specification, over the summed-message operator and the
    in-degree of the edge list: the kernel program's by reading its segments backwards, the array program's by unfolding
    its result stage; the arguments agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KValue.result_value m ρ c), (h c).2⟩)
    (Cert.KernelIdeal.Named.run (F := Ideal) m ρ), ?_⟩
  refine (θ_run Cert.ReferenceIdeal.defs _ _).mono (fun r h c => ⟨?_, (h c).2⟩)
    (Cert.ReferenceIdeal.Value.run (F := Ideal) m' ρ')
  refine ((h c).1.trans ((Cert.ReferenceIdeal.Read.val_main_v50_eq m' c).trans
    (Cert.ReferenceIdeal.RefValue.result_eq _ _ _ _ _ _ _ _ _))).trans ?_
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
